-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x4096 .f32) (main_arg1 : IVec S4096x4096 32) (main_arg2 : FVec F S131072 .f32) (main_arg3 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S4096x32 : Shape := ⟨2, ![4096, 32]⟩
abbrev S512x4096 : Shape := ⟨2, ![512, 4096]⟩
abbrev S512x32 : Shape := ⟨2, ![512, 32]⟩
abbrev S512 : Shape := ⟨1, ![512]⟩
abbrev S32x512 : Shape := ⟨2, ![32, 512]⟩
abbrev S512x32x1 : Shape := ⟨3, ![512, 32, 1]⟩
abbrev S512x32x128 : Shape := ⟨3, ![512, 32, 128]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S32x4096, .f32⟩
  | .hbm, ⟨1, _⟩ => ⟨S4096x4096, .i32⟩
  | .hbm, ⟨2, _⟩ => ⟨S131072, .f32⟩
  | .hbm, ⟨3, _⟩ => ⟨S4096, .f32⟩
  | .hbm, ⟨4, _⟩ => ⟨S4096x32, .f32⟩
  | .hbm, ⟨5, _⟩ => ⟨S32x4096, .f32⟩
  | .local _ .vmem, ⟨0, _⟩ => ⟨S32x4096, .f32⟩
  | .local _ .vmem, ⟨1, _⟩ => ⟨S512x4096, .i32⟩
  | .local _ .vmem, ⟨2, _⟩ => ⟨S512x4096, .i32⟩
  | .local _ .vmem, ⟨3, _⟩ => ⟨S512x32, .f32⟩
  | .local _ .vmem, ⟨4, _⟩ => ⟨S512x32, .f32⟩
  | .local _ .vmem, ⟨5, _⟩ => ⟨S512, .f32⟩
  | .local _ .vmem, ⟨6, _⟩ => ⟨S512, .f32⟩
  | .local _ .vmem, ⟨7, _⟩ => ⟨S32x512, .f32⟩
  | .local _ .vmem, ⟨8, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072_S4096x32 : S131072.ShapeCasts S4096x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  shapeCasts_S512x32x1_S512x32x1 : S512x32x1.ShapeCasts S512x32x1
  broadcasts_S512x32x1_S512x32x128 : S512x32x1.Broadcasts S512x32x128
  shapeCasts_S512x32x128_S512x4096 : S512x32x128.ShapeCasts S512x4096
  inb_S512x4096_S512x4096_0_0 : ∀ a, (![0, 0] : Fin 2 → Nat) a + S512x4096.size a ≤ S512x4096.size a
  h_S512x4096 : 0 < S512x4096.numel
  inb_S32x4096_S32x4096_0_0 : ∀ a, (![0, 0] : Fin 2 → Nat) a + S32x4096.size a ≤ S32x4096.size a
  h_S32x4096 : 0 < S32x4096.numel
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  dot_S32x4096_S512x4096_S32x512_1_1_0_0_n_n_wf : DotDims.WF S32x4096 S512x4096 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x4096.size a
  hwx0_4 : ∀ i : grid0.Coords, EltTy.bits .f32 = 32 ∨ (Rect.block (s := S32x4096) S32x512.size (cc0_transform_4 i) (hinb0_4 i)).WholeWords (EltTy.packing .f32)

variable [Facts₀]

def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S131072x128 : Shape := ⟨2, ![131072, 128]⟩
abbrev S131072x1 : Shape := ⟨2, ![131072, 1]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .i32⟩
  | .hbm, ⟨2, _⟩ => ⟨S131072, .f32⟩
  | .hbm, ⟨3, _⟩ => ⟨S4096, .f32⟩
  | .hbm, ⟨4, _⟩ => ⟨S4096x4096, .f32⟩
  | .hbm, ⟨5, _⟩ => ⟨S131072x128, .f32⟩
  | .hbm, ⟨6, _⟩ => ⟨S131072x1, .f32⟩
  | .hbm, ⟨7, _⟩ => ⟨S131072x128, .f32⟩
  | .hbm, ⟨8, _⟩ => ⟨S131072x128, .f32⟩
  | .hbm, ⟨9, _⟩ => ⟨S4096x4096, .f32⟩
  | .hbm, ⟨10, _⟩ => ⟨S4096x4096, .f32⟩
  | .hbm, ⟨11, _⟩ => ⟨S32x4096, .f32⟩
  | .hbm, ⟨12, _⟩ => ⟨S1x4096, .f32⟩
  | .hbm, ⟨13, _⟩ => ⟨S32x4096, .f32⟩
  | .hbm, ⟨14, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_0_0_1_n_n_wf : DotDims.WF S32x4096 S4096x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf

class Facts : Prop extends Facts₀ where

variable [Facts]
-- ==== Proof.LibGroupExpand.lean ====
/-
  A per-group value repeated over the members of its group, read at an index.

  An `[a, b]` array (one value per row `i` and group `j`) is given a trailing unit axis, repeated `c` times along
  it, and the last two axes are merged: the result is the `[a, b * c]` array whose entry `(i, k)` is the value of
  row `i`'s group `k / c`. The three steps are read at an index one by one, generic in the sizes, and then composed.
-/
import Idealize.ShloMosaic.Lib.ValueIdx
import Idealize.ShloMosaic.Lib.Pipeline.Value
import Idealize.ShloMosaic.Lib.ValueLayout

noncomputable section

namespace Cert.LibGroupExpand

open Idealize.ShloMosaic Idealize.ShloMosaic.ValueIdx

variable {α : Type}

/-- An `[a, b]` array cast to `[a, b, 1]` reads, at `(i, j, u)`, the operand at `(i, j)`, whatever the unit
    coordinate `u`: both positions are `i * b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`: the unit axis
    is the one repeated. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` array cast to `[a, n]` with `n = b * c` reads, at `(i, k)`, the operand at
    `(i, k / c, k % c)`: position `i * n + k` is `(i * b + k / c) * c + k % c`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (k : Fin n)
    (g : Fin b) (l : Fin c) (hg : g.val = k.val / c) (hl : l.val = k.val % c) :
    shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    have e : i.val * n = i.val * b * c := by rw [hn, Nat.mul_assoc]
    rw [hg, hl, e, Nat.add_mul, Nat.add_assoc, Nat.div_add_mod' k.val c])

/-- THE EXPANSION READ AT AN INDEX: an `[a, b]` array given a trailing unit axis, repeated `c` times along it and
    merged to `[a, n]`, `n = b * c`, reads at `(i, k)` the operand at `(i, k / c)`. -/
theorem expand_apply {a b c n : ℕ} (hn : n = b * c) (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (h3 : (⟨3, ![a, b, c]⟩ : Shape).ShapeCasts ⟨2, ![a, n]⟩) (i : Fin a) (k : Fin n)
    (g : Fin b) (hg : g.val = k.val / c) :
    shapeCast ⟨2, ![a, n]⟩ (broadcastTo ⟨3, ![a, b, c]⟩ (shapeCast ⟨3, ![a, b, 1]⟩ x h1) h2) h3 (ix2 i k) = x (ix2 i g) := by
  have hc : 0 < c := by
    rcases Nat.eq_zero_or_pos c with h0 | h0
    · have hk := k.isLt
      have e : n = 0 := by rw [hn, h0, Nat.mul_zero]
      omega
    · exact h0
  rw [shapeCast_abc_an_apply hn _ h3 i k g ⟨k.val % c, Nat.mod_lt _ hc⟩ hg rfl,
    broadcastTo_ab1_abc_apply _ h2 i g _, shapeCast_ab_ab1_apply x h1 i g _]

end Cert.LibGroupExpand

end
-- ==== Proof.DequantSpec.lean ====
/-
  The quantized linear layer, as one function of its four argument arrays over the extended reals.

  The weights are stored as integers `q[n, k]` (4096 output features by 4096 input features), with one scale per
  run of 128 consecutive entries of the row-major weight array: entry `(n, k)` is entry `n * 4096 + k` of that array,
  so its run is number `(n * 4096 + k) / 128 = n * 32 + k / 128`. The dequantized weight is the integer, converted
  exactly, times its run's scale, and the layer is `out[p, n] = (∑ k, x[p, k] * w[n, k]) + bias[n]`.

  Both programs compute exactly this sum, term by term and in the same order of `k`: no law of arithmetic is needed to
  identify them beyond reading each array at the right index, so nothing here asks the inputs to be finite.
-/
import Idealize.ShloMosaic.PureOps.Ideal
import Idealize.ShloMosaic.Lib.ValueIdx

noncomputable section

open scoped BigOperators

namespace Cert.Dequant

open Idealize.ShloMosaic Idealize.ShloMosaic.ValueIdx

/-- The group, within its row, of input feature `k`: groups are runs of 128 consecutive features. -/
def groupOf (k : Fin 4096) : Fin 32 := ⟨k.val / 128, by have := k.isLt; omega⟩

/-- The position, in the flat array of scales, of the scale of weight entry `(n, k)`: row `n` owns the 32
    consecutive scales from `n * 32`, one per group. -/
def scalePos (n k : Fin 4096) : Fin 131072 := ⟨n.val * 32 + k.val / 128, by have := n.isLt; have := k.isLt; omega⟩

/-- The dequantized weight `w[n, k]`: the stored integer, read signed and converted exactly, times its scale. -/
def weight (q : (⟨2, ![4096, 4096]⟩ : Shape).Idx → BitVec 32) (s : (⟨1, ![131072]⟩ : Shape).Idx → EReal)
    (n k : Fin 4096) : EReal :=
  FloatOps.sitofp (F := Ideal) .f32 (q (ix2 n k)) * s (ix1 (scalePos n k))

/-- One output entry: row `p` of the activations against row `n` of the dequantized weights, plus the bias. -/
def linearAt (x : (⟨2, ![32, 4096]⟩ : Shape).Idx → EReal) (q : (⟨2, ![4096, 4096]⟩ : Shape).Idx → BitVec 32)
    (s : (⟨1, ![131072]⟩ : Shape).Idx → EReal) (b : (⟨1, ![4096]⟩ : Shape).Idx → EReal)
    (p : Fin 32) (n : Fin 4096) : EReal :=
  (∑ k : Fin 4096, x (ix2 p k) * weight q s n k) + b (ix1 n)

/-- THE LAYER: the `[32, 4096]` output as one function of the four argument arrays, index by index. -/
def linear (x : (⟨2, ![32, 4096]⟩ : Shape).Idx → EReal) (q : (⟨2, ![4096, 4096]⟩ : Shape).Idx → BitVec 32)
    (s : (⟨1, ![131072]⟩ : Shape).Idx → EReal) (b : (⟨1, ![4096]⟩ : Shape).Idx → EReal) :
    (⟨2, ![32, 4096]⟩ : Shape).Idx → EReal :=
  fun i => linearAt x q s b (i 0) (i 1)

end Cert.Dequant

end
-- ==== Proof.KernelStored.lean ====
/-
  The kernel body's one stored value, read at an entry.

  At a grid point the body holds a block of 512 rows of the integer weights, those rows' 32 scales each, the whole
  activation array and 512 bias entries. It repeats each scale over the 128 members of its group, multiplies the
  converted integers by the repeated scales, contracts the activations with the result along the 4096 input features
  into a zero accumulator, and adds the bias along the rows. Entry `(p, r)` of what it stores is therefore
  `(∑ k, x[p, k] * (q[r, k] * scale[r, k / 128])) + bias[r]`, with `r` the row inside the block.
-/
import proofs.«170612_j76768245449069_2_alg».proof.Proof.Gen.KernelIdeal.Skeleton
import proofs.«170612_j76768245449069_2_alg».proof.Proof.LibGroupExpand
import proofs.«170612_j76768245449069_2_alg».proof.Proof.DequantSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dequant.Body

open Cert.KernelIdeal Cert.KernelIdeal.Gen Idealize.ShloMosaic Idealize.ShloMosaic.ValueIdx Cert.Dequant

/-! ## The repeated scales and the bias row -/

/-- The block's scales `[512, 32]`, given a trailing unit axis, repeated 128 times along it and merged to
    `[512, 4096]`, read at `(r, k)`: the scale of row `r`'s group `k / 128`. (The two casts between equal shapes are the
    identity.) -/
theorem scales_at {α : Type} (v0 : S512x32.Idx → α) (h0 : S512x32.ShapeCasts S512x32) (h1 : S512x32.ShapeCasts S512x32x1)
    (h1' : S512x32x1.ShapeCasts S512x32x1) (h2 : S512x32x1.Broadcasts S512x32x128) (h3 : S512x32x128.ShapeCasts S512x4096)
    (r : Fin 512) (k : Fin 4096) :
    shapeCast S512x4096 (broadcastTo S512x32x128 (shapeCast S512x32x1 (shapeCast S512x32x1 (shapeCast S512x32 v0 h0) h1) h1') h2) h3 (ix2 r k)
      = v0 (ix2 r (groupOf k)) := by
  rw [shapeCast_self v0 h0, shapeCast_self _ h1']
  exact Cert.LibGroupExpand.expand_apply (by norm_num) v0 h1 h2 h3 r k (groupOf k) rfl

/-- The block's 512 bias entries, laid as one row and repeated down the 32 rows, read at `(p, r)`: entry `r`. -/
theorem bias_at {α : Type} (v11 : S512.Idx → α) (h1 : S512.ShapeCasts S1x512) (h2 : S1x512.Broadcasts S32x512)
    (p : Fin 32) (r : Fin 512) :
    broadcastTo S32x512 (shapeCast S1x512 v11 h1) h2 (ix2 p r) = v11 (ix1 r) := by
  rw [broadcastTo_1b_ab_apply _ h2 p r, shapeCast_a_1a_apply v11 h1 _ r]

/-! ## The contraction -/

/-- The left operand's row coordinate is the output's row. -/
theorem lhs_row (i : S32x512.Idx) (q : dot_S32x4096_S512x4096_S32x512_1_1_0_0_n_n.contr.Idx) :
    (dot_S32x4096_S512x4096_S32x512_1_1_0_0_n_n.lhsIdx i q 0).val = (i 0).val := by
  unfold DotDims.lhsIdx
  rw [dif_neg (show ¬(0 : Fin S32x4096.rank) ∈ dot_S32x4096_S512x4096_S32x512_1_1_0_0_n_n.lhsBatch by decide), dif_pos (show (0 : Fin S32x4096.rank) ∈ dot_S32x4096_S512x4096_S32x512_1_1_0_0_n_n.lhsNonContracting by decide)]
  rfl

/-- The right operand's row coordinate is the output's column: the product is against the transposed block. -/
theorem rhs_row (i : S32x512.Idx) (q : dot_S32x4096_S512x4096_S32x512_1_1_0_0_n_n.contr.Idx) :
    (dot_S32x4096_S512x4096_S32x512_1_1_0_0_n_n.rhsIdx i q 0).val = (i 1).val := by
  unfold DotDims.rhsIdx
  rw [dif_neg (show ¬(0 : Fin S512x4096.rank) ∈ dot_S32x4096_S512x4096_S32x512_1_1_0_0_n_n.rhsBatch by decide), dif_pos (show (0 : Fin S512x4096.rank) ∈ dot_S32x4096_S512x4096_S32x512_1_1_0_0_n_n.rhsNonContracting by decide)]
  rfl

/-- THE CONTRACTION READ AT `(p, r)`, over the extended reals: into a zero accumulator, the sum over the 4096 input
    features of the products of row `p` of the left operand and row `r` of the right one. -/
theorem matmul_at (l : FVec Ideal S32x4096 .f32) (w : FVec Ideal S512x4096 .f32) (p : Fin 32) (r : Fin 512) :
    FloatOps.matmul (F := Ideal) dot_S32x4096_S512x4096_S32x512_1_1_0_0_n_n none l w (constant (F := Ideal) S32x512 .f32 0x00000000#32) (ix2 p r)
      = ∑ k : Fin 4096, l (ix2 p k) * w (ix2 r k) := by
  rw [Ideal.matmul_constant_zero_apply, ← Equiv.sum_comp (contrEquiv1 dot_S32x4096_S512x4096_S32x512_1_1_0_0_n_n 4096 rfl rfl).symm]
  refine Finset.sum_congr rfl fun k _ => ?_
  have hk := contrEquiv1_symm_val dot_S32x4096_S512x4096_S32x512_1_1_0_0_n_n 4096 rfl rfl k
  have el : dot_S32x4096_S512x4096_S32x512_1_1_0_0_n_n.lhsIdx (ix2 p r) ((contrEquiv1 dot_S32x4096_S512x4096_S32x512_1_1_0_0_n_n 4096 rfl rfl).symm k) = ix2 p k := funext fun a => Fin.ext (by
    match a with
    | ⟨0, _⟩ => exact lhs_row _ _
    | ⟨1, _⟩ => exact (dot_S32x4096_S512x4096_S32x512_1_1_0_0_n_n.lhsIdx_val_of_single rfl _ _).trans hk)
  have er : dot_S32x4096_S512x4096_S32x512_1_1_0_0_n_n.rhsIdx (ix2 p r) ((contrEquiv1 dot_S32x4096_S512x4096_S32x512_1_1_0_0_n_n 4096 rfl rfl).symm k) = ix2 r k := funext fun a => Fin.ext (by
    match a with
    | ⟨0, _⟩ => exact rhs_row _ _
    | ⟨1, _⟩ => exact (dot_S32x4096_S512x4096_S32x512_1_1_0_0_n_n.rhsIdx_val_of_single rfl _ _).trans hk)
  rw [el, er]

/-! ## The stored value -/

/-- THE BODY'S STORED VALUE AT `(p, r)`: of the loaded blocks `v0` (scales), `v6` (integer weights), `v9`
    (activations) and `v11` (bias). -/
theorem stored_at (v0 : Vec Ideal S512x32 .f32) (v6 : Vec Ideal S512x4096 .i32) (v9 : Vec Ideal S32x4096 .f32)
    (v11 : Vec Ideal S512 .f32) (p : Fin 32) (r : Fin 512) :
    k0_pay1 (F := Ideal) v0 v6 v9 v11 (ix2 p r)
      = (∑ k : Fin 4096, v9 (ix2 p k) * (FloatOps.sitofp (F := Ideal) .f32 (v6 (ix2 r k)) * v0 (ix2 r (groupOf k))))
        + v11 (ix1 r) := by
  unfold k0_pay1
  refine (congrArg₂ (fun a b : EReal => a + b) (matmul_at v9 _ p r) (bias_at v11 _ _ p r)).trans ?_
  refine congrArg (fun a : EReal => a + v11 (ix1 r)) (Finset.sum_congr rfl fun k _ => ?_)
  refine congrArg (fun a : EReal => v9 (ix2 p k) * a) ?_
  exact congrArg (fun a : EReal => FloatOps.sitofp (F := Ideal) .f32 (v6 (ix2 r k)) * a) (scales_at v0 _ _ _ _ _ r k)

end Cert.Dequant.Body

end
-- ==== Proof.StoredIsLinear.lean ====
/-
  The body's stored value is the layer on its block.

  Suppose the four loaded blocks are what block `T` of the grid holds: all of the activations, rows
  `T * 512 … T * 512 + 511` of the integer weights, those rows' scales (row `n`'s 32 scales are entries
  `n * 32 … n * 32 + 31` of the flat array), and the same rows' bias entries. Then entry `(p, r)` of the stored
  value is the layer's entry `(p, T * 512 + r)`: the two sums have the same terms.
-/
import proofs.«170612_j76768245449069_2_alg».proof.Proof.KernelStored

noncomputable section

open scoped BigOperators

namespace Cert.Dequant.Body

open Cert.KernelIdeal Cert.KernelIdeal.Gen Idealize.ShloMosaic Idealize.ShloMosaic.ValueIdx Cert.Dequant

theorem stored_is_linear
    (x : (⟨2, ![32, 4096]⟩ : Shape).Idx → EReal) (q : (⟨2, ![4096, 4096]⟩ : Shape).Idx → BitVec 32)
    (s : (⟨1, ![131072]⟩ : Shape).Idx → EReal) (b : (⟨1, ![4096]⟩ : Shape).Idx → EReal)
    (v0 : Vec Ideal S512x32 .f32) (v6 : Vec Ideal S512x4096 .i32) (v9 : Vec Ideal S32x4096 .f32) (v11 : Vec Ideal S512 .f32)
    (T : Nat)
    (h9 : ∀ (p : Fin 32) (k : Fin 4096), v9 (ix2 p k) = x (ix2 p k))
    (h6 : ∀ (r : Fin 512) (k : Fin 4096) (n : Fin 4096), n.val = T * 512 + r.val → v6 (ix2 r k) = q (ix2 n k))
    (h0 : ∀ (r : Fin 512) (g : Fin 32) (n : Fin 4096) (e : Fin 131072), n.val = T * 512 + r.val →
      e.val = n.val * 32 + g.val → v0 (ix2 r g) = s (ix1 e))
    (h11 : ∀ (r : Fin 512) (n : Fin 4096), n.val = T * 512 + r.val → v11 (ix1 r) = b (ix1 n))
    (j : S32x512.Idx) (i : (⟨2, ![32, 4096]⟩ : Shape).Idx)
    (hi0 : (i 0).val = (j 0).val) (hi1 : (i 1).val = T * 512 + (j 1).val) :
    k0_pay1 (F := Ideal) v0 v6 v9 v11 j = linear x q s b i := by
  obtain ⟨p, r, rfl⟩ : ∃ (p : Fin 32) (r : Fin 512), j = ix2 p r := ⟨j 0, j 1, eq_ix2 j⟩
  obtain ⟨p', n, rfl⟩ : ∃ (p' : Fin 32) (n : Fin 4096), i = ix2 p' n := ⟨i 0, i 1, eq_ix2 i⟩
  obtain rfl : p' = p := Fin.ext hi0
  have hn : n.val = T * 512 + r.val := hi1
  rw [stored_at]
  show _ = linearAt x q s b p' n
  unfold linearAt weight
  rw [h11 r n hn]
  refine congrArg (fun a : EReal => a + b (ix1 n)) (Finset.sum_congr rfl fun k _ => ?_)
  rw [h9 p' k, h6 r k n hn, h0 r (groupOf k) n (scalePos n k) hn rfl]

end Cert.Dequant.Body

end
-- ==== Proof.KernelValue.lean ====
/-
  The kernel's result array, after its run, is the layer of the argument arrays.

  The grid has 8 points. Point `t` stages all of the activations, rows `t * 512 … t * 512 + 511` of the integer
  weights, of the `[4096, 32]` array of scales and of the bias, and writes back columns `t * 512 … t * 512 + 511` of
  the `[32, 4096]` result. The `[4096, 32]` array of scales is the flat one regrouped before the launch, so its entry
  `(n, g)` is entry `n * 32 + g` of the argument. Each point therefore writes the layer's block, the 8 blocks tile the
  result, and the result is the layer.
-/
import proofs.«170612_j76768245449069_2_alg».proof.Proof.Gen.KernelIdeal.Value
import proofs.«170612_j76768245449069_2_alg».proof.Proof.StoredIsLinear
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Dequant

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 8 grid points: the activations' block never moves; the weights', the
    scales' and the bias's block index along the rows is the point's number, and so is the result's along the columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

/-! ## Each staged block, read at an entry -/

/-- The activations' block at any point is the whole array. -/
theorem acts_block (c : Dev nD) (t : Fin cfg0.N) (p : Fin 32) (k : Fin 4096) :
    (iblk m c 0 t : Vec Ideal S32x4096 .f32) (ix2 p k) = ((m ((c : Thread nD τ).loc main_arg0)) : S32x4096.Idx → EReal) (ix2 p k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 32 + 1 * p.val = p.val; rw [e0]; omega
  | ⟨1, _⟩ => show win0_0.index t (1 : Fin 2) * 4096 + 1 * k.val = k.val; rw [e1]; omega

/-- The integer weights' block at point `t`: row `r` of the block is row `t * 512 + r` of the array. -/
theorem weights_block (c : Dev nD) (t : Fin cfg0.N) (r : Fin 512) (k : Fin 4096) (n : Fin 4096) (hn : n.val = t.val * 512 + r.val) :
    (iblk m c 1 t : Vec Ideal S512x4096 .i32) (ix2 r k) = ((m ((c : Thread nD τ).loc main_arg1)) : S4096x4096.Idx → BitVec 32) (ix2 n k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * r.val = n.val; rw [e0, hn]; omega
  | ⟨1, _⟩ => show win0_1.index t (1 : Fin 2) * 4096 + 1 * k.val = k.val; rw [e1]; omega

/-- The `[4096, 32]` array of scales as the launch finds it: the flat argument regrouped. -/
theorem scales_array (c : Dev nD) :
    (V m c main_v0 : S4096x32.Idx → EReal) = shapeCast S4096x32 (m ((c : Thread nD τ).loc main_arg2)) shapeCasts_S131072_S4096x32 := by
  dsimp only [V, hostOps0]; after_results; rfl

/-- The scales' block at point `t`: entry `(r, g)` is the flat argument at `(t * 512 + r) * 32 + g`. -/
theorem scales_block (c : Dev nD) (t : Fin cfg0.N) (r : Fin 512) (g : Fin 32) (n : Fin 4096) (e : Fin 131072)
    (hn : n.val = t.val * 512 + r.val) (he : e.val = n.val * 32 + g.val) :
    (iblk m c 2 t : Vec Ideal S512x32 .f32) (ix2 r g) = ((m ((c : Thread nD τ).loc main_arg2)) : S131072.Idx → EReal) (ix1 e) := by
  obtain ⟨-, -, -, -, e0, e1, -⟩ := idx_facts t
  unfold iblk
  rw [View.read_apply]
  show V m c main_v0 _ = _
  rw [scales_array]
  refine shapeCast_apply _ _ _ (ix1 e) ?_
  rw [Shape.rowMajor_val_one, Shape.rowMajor_val_two]
  show e.val = (win0_2.index t (0 : Fin 2) * 512 + 1 * r.val) * 32 + (win0_2.index t (1 : Fin 2) * 32 + 1 * g.val)
  rw [e0, e1, he, hn]; omega

/-- The bias's block at point `t`: entry `r` is entry `t * 512 + r` of the array. -/
theorem bias_block (c : Dev nD) (t : Fin cfg0.N) (r : Fin 512) (n : Fin 4096) (hn : n.val = t.val * 512 + r.val) :
    (iblk m c 3 t : Vec Ideal S512 .f32) (ix1 r) = ((m ((c : Thread nD τ).loc main_arg3)) : S4096.Idx → EReal) (ix1 n) := by
  obtain ⟨-, -, -, -, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 512 + 1 * r.val = n.val; rw [e0, hn]; omega

/-! ## What each point writes back, the cover, and the run -/

/-- WHAT POINT `t` WRITES BACK is block `t` of the layer of the argument arrays. -/
theorem flushed_eq (c : Dev nD) (t : Fin cfg0.N) :
    (dats m 0 c).flushed 4 t
      = ((cfg0.win 4).blk t).view.read (Elt Ideal) (linear (m ((c : Thread nD τ).loc main_arg0)) (m ((c : Thread nD τ).loc main_arg1)) (m ((c : Thread nD τ).loc main_arg2)) (m ((c : Thread nD τ).loc main_arg3))) := by
  rw [flushed4]
  unfold out0_4
  rw [View.canon_unit_zero hz2]
  simp only [View.ld_unit_zero (S := S512x32) hz2, View.ld_unit_zero (S := S512x4096) hz2,
    View.ld_unit_zero (S := S32x4096) hz2, View.ld_unit_zero (S := S512) hz1]
  obtain ⟨-, -, -, -, -, -, -, e0, e1⟩ := idx_facts t
  funext j
  show k0_pay1 (F := Ideal) (iblk m c 2 t) (iblk m c 1 t) (iblk m c 0 t) (iblk m c 3 t) j
    = linear (m ((c : Thread nD τ).loc main_arg0)) (m ((c : Thread nD τ).loc main_arg1)) (m ((c : Thread nD τ).loc main_arg2)) (m ((c : Thread nD τ).loc main_arg3)) (((cfg0.win 4).blk t).view.emb j)
  refine Cert.Dequant.Body.stored_is_linear _ _ _ _ (iblk m c 2 t) (iblk m c 1 t) (iblk m c 0 t) (iblk m c 3 t) t.val
    (acts_block m c t) (weights_block m c t) (scales_block m c t) (bias_block m c t) j _ ?_ ?_
  · show win0_4.index t (0 : Fin 2) * 32 + 1 * (j 0).val = (j 0).val
    rw [e0]; omega
  · show win0_4.index t (1 : Fin 2) * 512 + 1 * (j 1).val = t.val * 512 + (j 1).val
    rw [e1]; omega

/-- An index of the result is in point `t`'s block iff each coordinate is in the block's range on its axis. -/
theorem mem_blk (t : Fin cfg0.N) (i : S32x4096.Idx) :
    i ∈ ((cfg0.win 4).blk t).view.set ↔ ∀ a : Fin 2, win0_4.index t a * S32x512.size a ≤ (i a).val ∧ (i a).val < win0_4.index t a * S32x512.size a + S32x512.size a := by
  show i ∈ ((View.whole main_v1).slice (win0_4.rect t)).set ↔ _
  rw [View.set_slice_whole, Rect.mem_set_unit]
  exact Iff.rfl

/-- Every entry of the result is written by the point that owns its column: `(i 1) / 512`. -/
theorem covered (i : S32x4096.Idx) : ∃ t : Fin cfg0.N, (cfg0.win 4).flush t = true ∧ i ∈ ((cfg0.win 4).blk t).view.set := by
  have hi0 : (i 0).val < 32 := (i 0).isLt
  have hi1 : (i 1).val < 4096 := (i 1).isLt
  have hN : cfg0.N = 8 := N_0
  have ht : (i 1).val / 512 < cfg0.N := by rw [hN]; omega
  obtain ⟨-, -, -, -, -, -, -, e0, e1⟩ := idx_facts ⟨(i 1).val / 512, ht⟩
  refine ⟨⟨(i 1).val / 512, ht⟩, flush0_4 _, ?_⟩
  rw [mem_blk]
  intro a
  match a with
  | ⟨0, _⟩ =>
    show win0_4.index ⟨(i 1).val / 512, ht⟩ (0 : Fin 2) * 32 ≤ (i 0).val ∧ (i 0).val < win0_4.index ⟨(i 1).val / 512, ht⟩ (0 : Fin 2) * 32 + 32
    rw [e0]; omega
  | ⟨1, _⟩ =>
    show win0_4.index ⟨(i 1).val / 512, ht⟩ (1 : Fin 2) * 512 ≤ (i 1).val ∧ (i 1).val < win0_4.index ⟨(i 1).val / 512, ht⟩ (1 : Fin 2) * 512 + 512
    rw [e1]
    show (i 1).val / 512 * 512 ≤ (i 1).val ∧ (i 1).val < (i 1).val / 512 * 512 + 512
    omega

/-- THE RESULT ARRAY after the run is the layer of the argument arrays. -/
theorem final (c : Dev nD) :
    (dats m 0 c).arrAt 4 cfg0.N = linear (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- THE RUN, READ: every weakly fair execution terminates with the result array at the layer of the argument arrays
    and the arguments unchanged. -/
theorem run : θ_run defs (onTc (τ := τ) (main (F := Ideal))) ⟨m, fun _ => 0, ρ⟩ fun r => ∀ c : Dev nD,
      r.2.mem ((c : Thread nD τ).loc main_v1) = linear (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.RefIsLinear.lean ====
/-
  The reference's result is the layer, index by index.

  The reference converts the integer weights, regroups the `[4096, 4096]` array as `[131072, 128]` (one row per run
  of 128 consecutive entries), multiplies each row by its scale, regroups back, transposes, and multiplies the
  activations by the transposed weights before adding the bias along the rows. Entry `(k, n)` of the transposed
  array is entry `(n, k)` of the weights; that entry sits at position `n * 4096 + k`, hence in run
  `(n * 4096 + k) / 128 = n * 32 + k / 128` at offset `(n * 4096 + k) % 128`, and regrouping back returns it to
  `(n, k)`. So the transposed array at `(k, n)` is the dequantized weight `w[n, k]`, and the product sums
  `x[p, k] * w[n, k]` over `k`.
-/
import proofs.«170612_j76768245449069_2_alg».proof.Proof.Gen.ReferenceIdeal.Read
import proofs.«170612_j76768245449069_2_alg».proof.Proof.DequantSpec

noncomputable section

open scoped BigOperators

namespace Cert.Dequant.Ref

open Cert.ReferenceIdeal Cert.ReferenceIdeal.Read Idealize.ShloMosaic Idealize.ShloMosaic.ValueIdx Cert.Dequant

/-- The transposed, regrouped, scaled weights at `(k, n)`: the dequantized weight `w[n, k]`. -/
theorem weightT_at (x1 : (⟨S4096x4096, .i32⟩ : BufTy).Contents (Elt Ideal)) (x2 : (⟨S131072, .f32⟩ : BufTy).Contents (Elt Ideal))
    (n k : Fin 4096) : val_main_v6 (F := Ideal) x1 x2 (ix2 k n) = weight x1 x2 n k := by
  rw [val_main_v6_apply, val_main_v5_apply, val_main_v4_apply, val_main_v1_apply, val_main_v0_apply, val_main_v3_apply,
    val_main_v2_apply]
  have hn : n.val < 4096 := n.isLt
  have hk : k.val < 4096 := k.isLt
  have e1 : idx_main_v1 (idx_main_v5 (idx_main_v6 (ix2 k n))) = ix2 n k := funext fun a => Fin.ext (by
    match a with
    | ⟨0, _⟩ =>
      show ((n.val * 4096 + k.val) / 128 * 128 + (n.val * 4096 + k.val) % 128) / 4096 = n.val
      omega
    | ⟨1, _⟩ =>
      show ((n.val * 4096 + k.val) / 128 * 128 + (n.val * 4096 + k.val) % 128) % 4096 = k.val
      omega)
  have e2 : idx_main_v2 (idx_main_v3 (idx_main_v5 (idx_main_v6 (ix2 k n)))) = ix1 (scalePos n k) := funext fun a => Fin.ext (by
    match a with
    | ⟨0, _⟩ =>
      show (n.val * 4096 + k.val) / 128 = n.val * 32 + k.val / 128
      omega)
  rw [e1, e2]
  rfl

/-- THE REFERENCE'S RESULT IS THE LAYER: its last stage, as a function of the four arguments, is `linear`. -/
theorem result_eq (x0 : (⟨S32x4096, .f32⟩ : BufTy).Contents (Elt Ideal)) (x1 : (⟨S4096x4096, .i32⟩ : BufTy).Contents (Elt Ideal))
    (x2 : (⟨S131072, .f32⟩ : BufTy).Contents (Elt Ideal)) (x3 : (⟨S4096, .f32⟩ : BufTy).Contents (Elt Ideal)) :
    val_main_v10 (F := Ideal) x0 x1 x2 x3 = linear x0 x1 x2 x3 := by
  funext i
  obtain ⟨p, n, rfl⟩ : ∃ (p : Fin 32) (n : Fin 4096), i = ix2 p n := ⟨i 0, i 1, eq_ix2 i⟩
  rw [val_main_v10_apply, val_main_v7_apply, val_main_v9_apply, val_main_v8_apply]
  have el : ∀ k : Fin 4096, lidx_main_v7 (ix2 p n) k = ix2 p k := fun k => funext fun a => by
    match a with
    | ⟨0, _⟩ => rfl
    | ⟨1, _⟩ => rfl
  have er : ∀ k : Fin 4096, ridx_main_v7 (ix2 p n) k = ix2 k n := fun k => funext fun a => by
    match a with
    | ⟨0, _⟩ => rfl
    | ⟨1, _⟩ => rfl
  have eb : idx_main_v8 (idx_main_v9 (ix2 p n)) = ix1 n := funext fun a => by
    match a with
    | ⟨0, _⟩ => rfl
  simp only [el, er, eb, weightT_at]
  rfl

end Cert.Dequant.Ref

end
-- ==== Proof.lean ====
/-
  A linear layer over integer weights with one scale per group of 128, against its plain definition.

  The kernel tiles the 4096 output features in 8 blocks of 512. On each block it repeats every scale over the 128
  members of its group, multiplies the converted integer weights by the repeated scales, contracts the activations
  with the result over the 4096 input features and adds the bias. The reference regroups the whole weight array as
  runs of 128, scales each run, regroups back, and multiplies the activations by the transpose before adding the bias.

  Over the extended reals both are

      out[p, n] = (∑ k, x[p, k] * (q[n, k] * scale[n * 32 + k / 128])) + bias[n],

  the same sum with the same terms in the same order of `k`: entry `(n, k)` of the weights is entry `n * 4096 + k` of
  the row-major array, whose run of 128 is number `n * 32 + k / 128`, which is also where the kernel's `[4096, 32]`
  regrouping of the scales puts row `n`'s group `k / 128`. No law of arithmetic is used beyond reading each array at
  the right index, so the precondition (finite inputs) is never opened. The kernel's rewriting to its idealized
  form changed no operation, so that claim is empty.

  The modules: `DequantSpec` states the layer; `LibGroupExpand` reads a per-group value repeated over its group;
  `KernelStored` and `StoredIsLinear` read the body's stored value at an entry; `KernelValue` reads the staged
  blocks, what each point writes back, the cover and the run; `RefIsLinear` reads the reference's result.
-/
import proofs.«170612_j76768245449069_2_alg».proof.Defs
import proofs.«170612_j76768245449069_2_alg».proof.Proof.Gen.Kernel
import proofs.«170612_j76768245449069_2_alg».proof.Proof.Gen.Kernel.Skeleton
import proofs.«170612_j76768245449069_2_alg».proof.Proof.Gen.Kernel.Launch
import proofs.«170612_j76768245449069_2_alg».proof.Proof.Gen.Kernel.Points
import proofs.«170612_j76768245449069_2_alg».proof.Proof.Gen.Kernel.Frame
import proofs.«170612_j76768245449069_2_alg».proof.Proof.Gen.KernelIdeal
import proofs.«170612_j76768245449069_2_alg».proof.Proof.Gen.KernelIdeal.Skeleton
import proofs.«170612_j76768245449069_2_alg».proof.Proof.Gen.KernelIdeal.Launch
import proofs.«170612_j76768245449069_2_alg».proof.Proof.Gen.KernelIdeal.Points
import proofs.«170612_j76768245449069_2_alg».proof.Proof.Gen.KernelIdeal.Frame
import proofs.«170612_j76768245449069_2_alg».proof.Proof.Gen.ReferenceIdeal
import proofs.«170612_j76768245449069_2_alg».proof.Proof.Gen.Pre_finite_inputs
import proofs.«170612_j76768245449069_2_alg».proof.Proof.Gen.KernelIdeal.Value
import proofs.«170612_j76768245449069_2_alg».proof.Proof.Gen.ReferenceIdeal.Run
import proofs.«170612_j76768245449069_2_alg».proof.Proof.Gen.ReferenceIdeal.Read
import proofs.«170612_j76768245449069_2_alg».proof.Proof.KernelValue
import proofs.«170612_j76768245449069_2_alg».proof.Proof.RefIsLinear
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Over the extended reals the kernel's result array ends at the layer of its arguments (`Hand.run`), and the
    reference's at its last stage, which is the layer of its arguments (`Ref.result_eq`); the arguments agree. -/
theorem algebraic : Cert.algebraic_KernelIdeal_ReferenceIdeal := by
  intro m ρ m' ρ' _ hagree
  refine ⟨fun c => Cert.Dequant.linear (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Dequant.Ref.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
